-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S256x512 : Shape := ⟨2, ![256, 512]⟩
abbrev S512x512 : Shape := ⟨2, ![512, 512]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512x512 .f32) (main_arg9 : FVec F S512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S65536x512 .f32) (main_arg5 : FVec F S256x512 .f32) (main_arg6 : FVec F S256x512 .f32) (main_arg7 : FVec F S512x512 .f32) (main_arg8 : FVec F S512x512 .f32) (main_arg9 : FVec F S512 .f32) (main_arg10 : FVec F S512 .f32) (main_v13 : IVec S_ 1) (main_v16 : IVec S65536x512 1) : IVec S_ 1 :=
  let main_c_5 : IVec S_ 1 := constantI S_ 1 1#1
  let main_v17 : IVec S_ 1 := (fun x v => Host.reduce IntOp.andi x v reducesTo_S65536x512_S_d0_1 h_S_) main_v16 main_c_5
  let main_v18 : IVec S_ 1 := andi main_v13 main_v17
  let main_v19 : FVec F S65536x512 .f32 := Host.absf main_arg4
  let main_cst_6 : FVec F S_ .f32 := constant S_ .f32 0x7F800000#32
  let main_v20 : FVec F S65536x512 .f32 := broadcastInDim S65536x512 ![] bcast_S_S65536x512 main_cst_6
  let main_v21 : IVec S65536x512 1 := cmpf .olt main_v19 main_v20
  let main_c_7 : IVec S_ 1 := constantI S_ 1 1#1
  let main_v22 : IVec S_ 1 := (fun x v => Host.reduce IntOp.andi x v reducesTo_S65536x512_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x256 .f32) (main_arg1 : FVec F S65536x512 .f32) (main_arg2 : FVec F S65536x512 .f32) (main_arg3 : FVec F S65536x512 .f32) (main_arg4 : FVec F S65536x512 .f32) (main_arg5 : FVec F S256x512 .f32) (main_arg6 : FVec F S256x512 .f32) (main_arg7 : FVec F S512x512 .f32) (main_arg8 : FVec F S512x512 .f32) (main_arg9 : FVec F S512 .f32) (main_arg10 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S65536x512 .f32 := Host.absf main_arg2
  let main_cst_2 : FVec F S_ .f32 := constant S_ .f32 0x7F800000#32
  let main_v10 : FVec F S65536x512 .f32 := broadcastInDim S65536x512 ![] bcast_S_S65536x512 main_cst_2
  let main_v11 : IVec S65536x512 1 := cmpf .olt main_v9 main_v10
  let main_c_3 : IVec S_ 1 := constantI S_ 1 1#1
  let main_v12 : IVec S_ 1 := (fun x v => Host.reduce IntOp.andi x v reducesTo_S65536x512_S_d0_1 h_S_) main_v11 main_c_3
  let main_v13 : IVec S_ 1 := andi main_v8 main_v12
  let main_v14 : FVec F S65536x512 .f32 := Host.absf main_arg3
  let main_cst_4 : FVec F S_ .f32 := constant S_ .f32 0x7F800000#32
  let main_v15 : FVec F S65536x512 .f32 := broadcastInDim S65536x512 ![] bcast_S_S65536x512 main_cst_4
  let main_v16 : IVec S65536x512 1 := cmpf .olt main_v14 main_v15
  fn_part1 (F := F) main_arg4 main_arg5 main_arg6 main_arg7 main_arg8 main_arg9 main_arg10 main_v13 main_v16
-- ==== Kernel.lean ====
abbrev S65536x256 : Shape := ⟨2, ![65536, 256]⟩
abbrev S65536x512 : Shape := ⟨2, ![65536, 512]⟩
abbrev S256x512 : Shape := ⟨2, ![256, 512]⟩
abbrev S512x512 : Shape := ⟨2, ![512, 512]⟩
abbrev S512 : Shape := ⟨1, ![512]⟩
abbrev S1024x256 : Shape := ⟨2, ![1024, 256]⟩
abbrev S1024x512 : Shape := ⟨2, ![1024, 512]⟩
abbrev S1x512 : Shape := ⟨2, ![1, 512]⟩

abbrev nBuf : Space → Nat
  | .hbm => 15
  | .vmem => 24
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S256x512, .f32⟩
  | .hbm, ⟨6, _⟩ => ⟨S256x512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S256x512, .f32⟩
  | .local _ .vmem, ⟨11, _⟩ => ⟨S256x512, .f32⟩
  | .local _ .vmem, ⟨12, _⟩ => ⟨S512x512, .f32⟩
  | .local _ .vmem, ⟨13, _⟩ => ⟨S512x512, .f32⟩
  | .local _ .vmem, ⟨14, _⟩ => ⟨S512, .f32⟩
  | .local _ .vmem, ⟨15, _⟩ => ⟨S512, .f32⟩
  | .local _ .vmem, ⟨16, _⟩ => ⟨S1024x512, .f32⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S65536x512.size a
  hwx0_2 : ∀ i : grid0.Coords, EltTy.bits .f32 = 32 ∨ (Rect.block (s := S65536x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S65536x512.size a
  hwx0_4 : ∀ i : grid0.Coords, EltTy.bits .f32 = 32 ∨ (Rect.block (s := S65536x512) S1024x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .f32 = 32 ∨ (Rect.block (s := S256x512) S256x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S65536x512.size a
  hwx0_11 : ∀ i : grid0.Coords, EltTy.bits .f32 = 32 ∨ (Rect.block (s := S65536x512) S1024x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x512.size a ≤ S65536x512.size a
  hwx0_12 : ∀ i : grid0.Coords, EltTy.bits .f32 = 32 ∨ (Rect.block (s := S65536x512) S1024x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x512.size a ≤ S65536x512.size a
  hwx0_13 : ∀ i : grid0.Coords, EltTy.bits .f32 = 32 ∨ (Rect.block (s := S65536x512) S1024x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S65536x512.size a
  hwx0_14 : ∀ i : grid0.Coords, EltTy.bits .f32 = 32 ∨ (Rect.block (s := S65536x512) S1024x512.size (cc0_transform_14 i) (hinb0_14 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0_0) S1024x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_1) S1024x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_2) S1024x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v0_3) S1024x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S256x512 : Shape := ⟨2, ![256, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S256x512, .f32⟩
  | .hbm, ⟨6, _⟩ => ⟨S256x512, .f32⟩
  | .hbm, ⟨7, _⟩ => ⟨S512x512, .f32⟩
  | .hbm, ⟨8, _⟩ => ⟨S512x512, .f32⟩
  | .hbm, ⟨9, _⟩ => ⟨S512, .f32⟩
  | .hbm, ⟨10, _⟩ => ⟨S512, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S1x512, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S65536x512, .f32⟩
  | .hbm, ⟨20, _⟩ => ⟨S1x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S_, .f32⟩
  | .hbm, ⟨25, _⟩ => ⟨S65536x512, .f32⟩
  | .hbm, ⟨26, _⟩ => ⟨S65536x512, .f32⟩
  | .hbm, ⟨27, _⟩ => ⟨S65536x512, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .f32⟩
  | .hbm, ⟨38, _⟩ => ⟨S_, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x256_S256x512_S65536x512_1_0_0_1_n_n_wf : DotDims.WF S65536x256 S256x512 S65536x512 [1] [0] [0] [1] [] []
  dot_S65536x512_S512x512_S65536x512_1_0_0_1_n_n_wf : DotDims.WF S65536x512 S512x512 S65536x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.Spec.lean ====
/-
  The function both programs compute, stated once over the extended reals and over no program.

  Inputs: a batch of rows `x` (65536 × 256) and `h` (65536 × 512), three state arrays `c`, `n`, `m` (65536 × 512),
  two pairs of weight matrices (`w` : 256 × 512 acting on `x`, `r` : 512 × 512 acting on `h`) and two bias rows.

  A PRE-ACTIVATION at row `p`, column `q` is the sum of two inner products plus a bias entry,
      pre x h w r b p q = (∑ₖ x[p,k]·w[k,q] + ∑ₖ h[p,k]·r[k,q]) + b[q],
  grouped exactly so; no law of addition is used anywhere, so the statement holds at the infinities as well.

  With `u` the pre-activation of the forget pair, `v` that of the candidate pair, and the state entries `c`, `n`, `m`
  at the same position, the four results are pointwise:
      stab  = max (u + m) 0                                   (the new stabilizer)
      inG   = exp (−stab)                                     (the input gate, stabilized)
      keepG = exp ((u + m) − stab)                            (the forget gate, stabilized)
      cell  = keepG · c + inG · tanh v                        (the new cell state)
      norm  = keepG · n + inG                                 (the new normalizer)
      hid   = tanh (cell / max norm ε)                        (the new hidden state; ε the f32 word 0x322BCC77)
  The literals stay as their words: the same word stands on both sides and is never evaluated, except the zero
  word, whose value 0 is what turns `0 − s` into `−s`.
-/
import Idealize.ShloMosaic.PureOps.Ideal
import Idealize.ShloMosaic.Lib.ValueIdx
import Idealize.ShloMosaic.Lib.IdealHost

noncomputable section

namespace Cert.Cell

open Idealize.ShloMosaic Idealize.ShloMosaic.ValueIdx
open scoped BigOperators

/-- The shapes of the arrays, by their extents. -/
abbrev SX : Shape := ⟨2, ![65536, 256]⟩
abbrev SH : Shape := ⟨2, ![65536, 512]⟩
abbrev SWx : Shape := ⟨2, ![256, 512]⟩
abbrev SWh : Shape := ⟨2, ![512, 512]⟩
abbrev SB : Shape := ⟨1, ![512]⟩

/-! ## The pointwise part -/

/-- The new stabilizer: the larger of `u + m` and zero. -/
def stab (u m : EReal) : EReal := max (u + m) (Ideal.ofBits .f32 0x00000000#32)

/-- The stabilized input gate `exp (−stab)`. -/
def inG (u m : EReal) : EReal := Ideal.exp (-(stab u m))

/-- The stabilized forget gate `exp ((u + m) − stab)`. -/
def keepG (u m : EReal) : EReal := Ideal.exp ((u + m) - stab u m)

/-- The new cell state. -/
def cell (u v m c : EReal) : EReal := keepG u m * c + inG u m * Ideal.tanh v

/-- The new normalizer. -/
def norm (u m n : EReal) : EReal := keepG u m * n + inG u m

/-- The new hidden state: the cell over the normalizer, the normalizer kept at least `ε`. -/
def hid (u v m c n : EReal) : EReal :=
  Ideal.tanh (Ideal.div (cell u v m c) (max (norm u m n) (Ideal.ofBits .f32 0x322BCC77#32)))

/-- Zero minus `s` is `−s` on every extended real, the infinities included; the zero is the f32 zero word. -/
theorem zero_word_sub (s : EReal) : Ideal.ofBits .f32 0x00000000#32 - s = -s := by
  rw [Ideal.ofBits_zero_f32, zero_sub]

/-! ## The pre-activation -/

/-- The pre-activation at row `p`, column `q`, for any number of rows `R`: two inner products over the row and a bias
    entry. Only row `p` of `x` and of `h` enters. -/
def pre {R : Nat} (x : (⟨2, ![R, 256]⟩ : Shape).Idx → EReal) (h : (⟨2, ![R, 512]⟩ : Shape).Idx → EReal)
    (w : SWx.Idx → EReal) (r : SWh.Idx → EReal) (b : SB.Idx → EReal) (p : Fin R) (q : Fin 512) : EReal :=
  ((∑ k : Fin 256, x (ix2 p k) * w (ix2 k q)) + ∑ k : Fin 512, h (ix2 p k) * r (ix2 k q)) + b (ix1 q)

/-- The pre-activation depends on `x` and `h` only through row `p`: two pairs of arrays whose rows `p` and `p'` agree
    give the same value. -/
theorem pre_congr {R R' : Nat} (x : (⟨2, ![R, 256]⟩ : Shape).Idx → EReal) (h : (⟨2, ![R, 512]⟩ : Shape).Idx → EReal)
    (x' : (⟨2, ![R', 256]⟩ : Shape).Idx → EReal) (h' : (⟨2, ![R', 512]⟩ : Shape).Idx → EReal)
    (w : SWx.Idx → EReal) (r : SWh.Idx → EReal) (b : SB.Idx → EReal) (p : Fin R) (p' : Fin R') (q : Fin 512)
    (hx : ∀ k : Fin 256, x (ix2 p k) = x' (ix2 p' k)) (hh : ∀ k : Fin 512, h (ix2 p k) = h' (ix2 p' k)) :
    pre x h w r b p q = pre x' h' w r b p' q := by
  unfold pre
  have e1 : (∑ k : Fin 256, x (ix2 p k) * w (ix2 k q)) = ∑ k : Fin 256, x' (ix2 p' k) * w (ix2 k q) :=
    Finset.sum_congr rfl fun k _ => by rw [hx k]
  have e2 : (∑ k : Fin 512, h (ix2 p k) * r (ix2 k q)) = ∑ k : Fin 512, h' (ix2 p' k) * r (ix2 k q) :=
    Finset.sum_congr rfl fun k _ => by rw [hh k]
  rw [e1, e2]

/-! ## The four result arrays -/

/-- The new stabilizer array. -/
def mOut (x : SX.Idx → EReal) (h m : SH.Idx → EReal) (wf : SWx.Idx → EReal) (rf : SWh.Idx → EReal) (bf : SB.Idx → EReal) :
    SH.Idx → EReal := fun i => stab (pre x h wf rf bf (i 0) (i 1)) (m i)

/-- The new cell array. -/
def cOut (x : SX.Idx → EReal) (h c m : SH.Idx → EReal) (wf wc : SWx.Idx → EReal) (rf rc : SWh.Idx → EReal)
    (bf bc : SB.Idx → EReal) : SH.Idx → EReal :=
  fun i => cell (pre x h wf rf bf (i 0) (i 1)) (pre x h wc rc bc (i 0) (i 1)) (m i) (c i)

/-- The new normalizer array. -/
def nOut (x : SX.Idx → EReal) (h n m : SH.Idx → EReal) (wf : SWx.Idx → EReal) (rf : SWh.Idx → EReal) (bf : SB.Idx → EReal) :
    SH.Idx → EReal := fun i => norm (pre x h wf rf bf (i 0) (i 1)) (m i) (n i)

/-- The new hidden array. -/
def hOut (x : SX.Idx → EReal) (h c n m : SH.Idx → EReal) (wf wc : SWx.Idx → EReal) (rf rc : SWh.Idx → EReal)
    (bf bc : SB.Idx → EReal) : SH.Idx → EReal :=
  fun i => hid (pre x h wf rf bf (i 0) (i 1)) (pre x h wc rc bc (i 0) (i 1)) (m i) (c i) (n i)

end Cert.Cell

end
-- ==== Proof.Blocks.lean ====
/-
  Where the kernel's blocks sit in their arrays.

  The grid has 64 points. At point `t` each of the five row-blocked inputs (the input rows, the hidden rows, and the
  cell, normalizer and stabilizer state) and each of the four outputs is staged as the block of rows
  `t · 1024 … t · 1024 + 1023`, all columns; the four weight matrices and the two bias rows are staged whole at every
  point. These relations between the printed index maps are decided once over the 64 points. From them: an element
  of a row block, at row `p` inside the block, is the array's element at row `t · 1024 + p`; a whole-array block is the
  array; and the 64 output blocks cover all 65536 rows (row `r` lies in the block of point `r / 1024`).
-/
import proofs.«146297_j23545010717396_1_alg».proof.Proof.Gen.KernelIdeal.Value
import proofs.«146297_j23545010717396_1_alg».proof.Proof.Spec
import Idealize.ShloMosaic.Lib.ValueIdx
import Idealize.ShloMosaic.Lib.Pipeline.Value

noncomputable section

namespace Cert.Cell.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The index maps, decided over the grid -/

/-- The row-blocked windows: at point `t` the block index is `t` along the rows and `0` along the columns. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- The whole-array windows: the block index is `0` on every axis at every point. -/
theorem idx_fixed : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ win0_10.index t (0 : Fin 1) = 0 :=
  (by decide +kernel : ∀ t : Fin grid0.N, _)

/-- The array row that row `p` of point `t`'s block is: `t · 1024 + p`. -/
def row (t : Fin cfg0.N) (p : Fin 1024) : Fin 65536 :=
  ⟨t.val * 1024 + p.val, by have h := t.isLt; have hN : cfg0.N = 64 := N_0; omega⟩

/-! ## Reading the input blocks -/

/-- Row `p` of window 0's block at point `t` is row `t · 1024 + p` of its array. -/
theorem read0 (c : Dev nD) (t : Fin cfg0.N) (p : Fin 1024) (k : Fin 256) :
    iblk m c 0 t (ix2 p k) = V m c main_arg0 (ix2 (row t p) k) := by
  show V m c main_arg0 (((cfg0.win 0).blk t).view.emb (ix2 p k)) = _
  refine congrArg (V m c main_arg0) ?_
  obtain ⟨⟨e0, e1⟩, -, -, -, -, -, -, -, -⟩ := idx_rows t
  funext a; apply Fin.ext
  match a with
  | ⟨0, _⟩ => show win0_0.index t (0 : Fin 2) * 1024 + 1 * p.val = t.val * 1024 + p.val; omega
  | ⟨1, _⟩ => show win0_0.index t (1 : Fin 2) * 256 + 1 * k.val = k.val; omega

/-- Row `p` of window 1's block at point `t` is row `t · 1024 + p` of its array. -/
theorem read1 (c : Dev nD) (t : Fin cfg0.N) (p : Fin 1024) (k : Fin 512) :
    iblk m c 1 t (ix2 p k) = V m c main_arg1 (ix2 (row t p) k) := by
  show V m c main_arg1 (((cfg0.win 1).blk t).view.emb (ix2 p k)) = _
  refine congrArg (V m c main_arg1) ?_
  obtain ⟨-, ⟨e0, e1⟩, -, -, -, -, -, -, -⟩ := idx_rows t
  funext a; apply Fin.ext
  match a with
  | ⟨0, _⟩ => show win0_1.index t (0 : Fin 2) * 1024 + 1 * p.val = t.val * 1024 + p.val; omega
  | ⟨1, _⟩ => show win0_1.index t (1 : Fin 2) * 512 + 1 * k.val = k.val; omega

/-- Row `p` of window 2's block at point `t` is row `t · 1024 + p` of its array. -/
theorem read2 (c : Dev nD) (t : Fin cfg0.N) (p : Fin 1024) (k : Fin 512) :
    iblk m c 2 t (ix2 p k) = V m c main_arg2 (ix2 (row t p) k) := by
  show V m c main_arg2 (((cfg0.win 2).blk t).view.emb (ix2 p k)) = _
  refine congrArg (V m c main_arg2) ?_
  obtain ⟨-, -, ⟨e0, e1⟩, -, -, -, -, -, -⟩ := idx_rows t
  funext a; apply Fin.ext
  match a with
  | ⟨0, _⟩ => show win0_2.index t (0 : Fin 2) * 1024 + 1 * p.val = t.val * 1024 + p.val; omega
  | ⟨1, _⟩ => show win0_2.index t (1 : Fin 2) * 512 + 1 * k.val = k.val; omega

/-- Row `p` of window 3's block at point `t` is row `t · 1024 + p` of its array. -/
theorem read3 (c : Dev nD) (t : Fin cfg0.N) (p : Fin 1024) (k : Fin 512) :
    iblk m c 3 t (ix2 p k) = V m c main_arg3 (ix2 (row t p) k) := by
  show V m c main_arg3 (((cfg0.win 3).blk t).view.emb (ix2 p k)) = _
  refine congrArg (V m c main_arg3) ?_
  obtain ⟨-, -, -, ⟨e0, e1⟩, -, -, -, -, -⟩ := idx_rows t
  funext a; apply Fin.ext
  match a with
  | ⟨0, _⟩ => show win0_3.index t (0 : Fin 2) * 1024 + 1 * p.val = t.val * 1024 + p.val; omega
  | ⟨1, _⟩ => show win0_3.index t (1 : Fin 2) * 512 + 1 * k.val = k.val; omega

/-- Row `p` of window 4's block at point `t` is row `t · 1024 + p` of its array. -/
theorem read4 (c : Dev nD) (t : Fin cfg0.N) (p : Fin 1024) (k : Fin 512) :
    iblk m c 4 t (ix2 p k) = V m c main_arg4 (ix2 (row t p) k) := by
  show V m c main_arg4 (((cfg0.win 4).blk t).view.emb (ix2 p k)) = _
  refine congrArg (V m c main_arg4) ?_
  obtain ⟨-, -, -, -, ⟨e0, e1⟩, -, -, -, -⟩ := idx_rows t
  funext a; apply Fin.ext
  match a with
  | ⟨0, _⟩ => show win0_4.index t (0 : Fin 2) * 1024 + 1 * p.val = t.val * 1024 + p.val; omega
  | ⟨1, _⟩ => show win0_4.index t (1 : Fin 2) * 512 + 1 * k.val = k.val; omega

/-- Window 5's block is its whole array at every point. -/
theorem read5 (c : Dev nD) (t : Fin cfg0.N) : iblk m c 5 t = V m c main_arg5 := by
  funext y
  show V m c main_arg5 (((cfg0.win 5).blk t).view.emb y) = V m c main_arg5 y
  refine congrArg (V m c main_arg5) ?_
  obtain ⟨⟨e0, e1⟩, -, -, -, -, -⟩ := idx_fixed t
  funext a; apply Fin.ext
  match a with
  | ⟨0, _⟩ => show win0_5.index t (0 : Fin 2) * 256 + 1 * (y 0).val = (y 0).val; omega
  | ⟨1, _⟩ => show win0_5.index t (1 : Fin 2) * 512 + 1 * (y 1).val = (y 1).val; omega

/-- Window 6's block is its whole array at every point. -/
theorem read6 (c : Dev nD) (t : Fin cfg0.N) : iblk m c 6 t = V m c main_arg6 := by
  funext y
  show V m c main_arg6 (((cfg0.win 6).blk t).view.emb y) = V m c main_arg6 y
  refine congrArg (V m c main_arg6) ?_
  obtain ⟨-, ⟨e0, e1⟩, -, -, -, -⟩ := idx_fixed t
  funext a; apply Fin.ext
  match a with
  | ⟨0, _⟩ => show win0_6.index t (0 : Fin 2) * 256 + 1 * (y 0).val = (y 0).val; omega
  | ⟨1, _⟩ => show win0_6.index t (1 : Fin 2) * 512 + 1 * (y 1).val = (y 1).val; omega

/-- Window 7's block is its whole array at every point. -/
theorem read7 (c : Dev nD) (t : Fin cfg0.N) : iblk m c 7 t = V m c main_arg7 := by
  funext y
  show V m c main_arg7 (((cfg0.win 7).blk t).view.emb y) = V m c main_arg7 y
  refine congrArg (V m c main_arg7) ?_
  obtain ⟨-, -, ⟨e0, e1⟩, -, -, -⟩ := idx_fixed t
  funext a; apply Fin.ext
  match a with
  | ⟨0, _⟩ => show win0_7.index t (0 : Fin 2) * 512 + 1 * (y 0).val = (y 0).val; omega
  | ⟨1, _⟩ => show win0_7.index t (1 : Fin 2) * 512 + 1 * (y 1).val = (y 1).val; omega

/-- Window 8's block is its whole array at every point. -/
theorem read8 (c : Dev nD) (t : Fin cfg0.N) : iblk m c 8 t = V m c main_arg8 := by
  funext y
  show V m c main_arg8 (((cfg0.win 8).blk t).view.emb y) = V m c main_arg8 y
  refine congrArg (V m c main_arg8) ?_
  obtain ⟨-, -, -, ⟨e0, e1⟩, -, -⟩ := idx_fixed t
  funext a; apply Fin.ext
  match a with
  | ⟨0, _⟩ => show win0_8.index t (0 : Fin 2) * 512 + 1 * (y 0).val = (y 0).val; omega
  | ⟨1, _⟩ => show win0_8.index t (1 : Fin 2) * 512 + 1 * (y 1).val = (y 1).val; omega

/-- Window 9's block is its whole array at every point. -/
theorem read9 (c : Dev nD) (t : Fin cfg0.N) : iblk m c 9 t = V m c main_arg9 := by
  funext y
  show V m c main_arg9 (((cfg0.win 9).blk t).view.emb y) = V m c main_arg9 y
  refine congrArg (V m c main_arg9) ?_
  obtain ⟨-, -, -, -, e0, -⟩ := idx_fixed t
  funext a; apply Fin.ext
  match a with
  | ⟨0, _⟩ => show win0_9.index t (0 : Fin 1) * 512 + 1 * (y 0).val = (y 0).val; omega

/-- Window 10's block is its whole array at every point. -/
theorem read10 (c : Dev nD) (t : Fin cfg0.N) : iblk m c 10 t = V m c main_arg10 := by
  funext y
  show V m c main_arg10 (((cfg0.win 10).blk t).view.emb y) = V m c main_arg10 y
  refine congrArg (V m c main_arg10) ?_
  obtain ⟨-, -, -, -, -, e0⟩ := idx_fixed t
  funext a; apply Fin.ext
  match a with
  | ⟨0, _⟩ => show win0_10.index t (0 : Fin 1) * 512 + 1 * (y 0).val = (y 0).val; omega

/-! ## Output window 11 -/

/-- Row `p`, column `q` of window 11's block at point `t` sits at row `t · 1024 + p`, column `q` of its array. -/
theorem emb11 (t : Fin cfg0.N) (p : Fin 1024) (q : Fin 512) :
    ((cfg0.win 11).blk t).view.emb (ix2 p q) = ix2 (row t p) q := by
  obtain ⟨-, -, -, -, -, ⟨e0, e1⟩, -, -, -⟩ := idx_rows t
  funext a; apply Fin.ext
  match a with
  | ⟨0, _⟩ => show win0_11.index t (0 : Fin 2) * 1024 + 1 * p.val = t.val * 1024 + p.val; omega
  | ⟨1, _⟩ => show win0_11.index t (1 : Fin 2) * 512 + 1 * q.val = q.val; omega

/-- An index of the array is in point `t`'s block iff each coordinate is in the block's range on its axis. -/
theorem mem_blk11 (t : Fin cfg0.N) (i : S65536x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v0_0).slice (win0_11.rect t)).set ↔ _
  rw [View.set_slice_whole, Rect.mem_set_unit]
  exact Iff.rfl

/-- Every index of the array is in some point's block: row `r` is in the block of point `r / 1024`. -/
theorem cover11 (i : S65536x512.Idx) :
    ∃ t : Fin cfg0.N, (cfg0.win 11).flush t = true ∧ i ∈ ((cfg0.win 11).blk t).view.set := by
  have hi0 : (i 0).val < 65536 := (i 0).isLt
  have hi1 : (i 1).val < 512 := (i 1).isLt
  have hN : cfg0.N = 64 := N_0
  have hlt : (i 0).val / 1024 < cfg0.N := by omega
  obtain ⟨-, -, -, -, -, ⟨e0, e1⟩, -, -, -⟩ := idx_rows ⟨(i 0).val / 1024, hlt⟩
  have e0' : win0_11.index ⟨(i 0).val / 1024, hlt⟩ (0 : Fin 2) = (i 0).val / 1024 := e0
  refine ⟨⟨(i 0).val / 1024, hlt⟩, flush0_11 _, ?_⟩
  rw [mem_blk11]
  intro a
  match a with
  | ⟨0, _⟩ =>
    show win0_11.index ⟨(i 0).val / 1024, hlt⟩ (0 : Fin 2) * 1024 ≤ (i 0).val ∧ (i 0).val < win0_11.index ⟨(i 0).val / 1024, hlt⟩ (0 : Fin 2) * 1024 + 1024
    omega
  | ⟨1, _⟩ =>
    show win0_11.index ⟨(i 0).val / 1024, hlt⟩ (1 : Fin 2) * 512 ≤ (i 1).val ∧ (i 1).val < win0_11.index ⟨(i 0).val / 1024, hlt⟩ (1 : Fin 2) * 512 + 512
    omega

/-! ## Output window 12 -/

/-- Row `p`, column `q` of window 12's block at point `t` sits at row `t · 1024 + p`, column `q` of its array. -/
theorem emb12 (t : Fin cfg0.N) (p : Fin 1024) (q : Fin 512) :
    ((cfg0.win 12).blk t).view.emb (ix2 p q) = ix2 (row t p) q := by
  obtain ⟨-, -, -, -, -, -, ⟨e0, e1⟩, -, -⟩ := idx_rows t
  funext a; apply Fin.ext
  match a with
  | ⟨0, _⟩ => show win0_12.index t (0 : Fin 2) * 1024 + 1 * p.val = t.val * 1024 + p.val; omega
  | ⟨1, _⟩ => show win0_12.index t (1 : Fin 2) * 512 + 1 * q.val = q.val; omega

/-- An index of the array is in point `t`'s block iff each coordinate is in the block's range on its axis. -/
theorem mem_blk12 (t : Fin cfg0.N) (i : S65536x512.Idx) :
    i ∈ ((cfg0.win 12).blk t).view.set ↔ ∀ a : Fin 2, win0_12.index t a * S1024x512.size a ≤ (i a).val ∧ (i a).val < win0_12.index t a * S1024x512.size a + S1024x512.size a := by
  show i ∈ ((View.whole main_v0_1).slice (win0_12.rect t)).set ↔ _
  rw [View.set_slice_whole, Rect.mem_set_unit]
  exact Iff.rfl

/-- Every index of the array is in some point's block: row `r` is in the block of point `r / 1024`. -/
theorem cover12 (i : S65536x512.Idx) :
    ∃ t : Fin cfg0.N, (cfg0.win 12).flush t = true ∧ i ∈ ((cfg0.win 12).blk t).view.set := by
  have hi0 : (i 0).val < 65536 := (i 0).isLt
  have hi1 : (i 1).val < 512 := (i 1).isLt
  have hN : cfg0.N = 64 := N_0
  have hlt : (i 0).val / 1024 < cfg0.N := by omega
  obtain ⟨-, -, -, -, -, -, ⟨e0, e1⟩, -, -⟩ := idx_rows ⟨(i 0).val / 1024, hlt⟩
  have e0' : win0_12.index ⟨(i 0).val / 1024, hlt⟩ (0 : Fin 2) = (i 0).val / 1024 := e0
  refine ⟨⟨(i 0).val / 1024, hlt⟩, flush0_12 _, ?_⟩
  rw [mem_blk12]
  intro a
  match a with
  | ⟨0, _⟩ =>
    show win0_12.index ⟨(i 0).val / 1024, hlt⟩ (0 : Fin 2) * 1024 ≤ (i 0).val ∧ (i 0).val < win0_12.index ⟨(i 0).val / 1024, hlt⟩ (0 : Fin 2) * 1024 + 1024
    omega
  | ⟨1, _⟩ =>
    show win0_12.index ⟨(i 0).val / 1024, hlt⟩ (1 : Fin 2) * 512 ≤ (i 1).val ∧ (i 1).val < win0_12.index ⟨(i 0).val / 1024, hlt⟩ (1 : Fin 2) * 512 + 512
    omega

/-! ## Output window 13 -/

/-- Row `p`, column `q` of window 13's block at point `t` sits at row `t · 1024 + p`, column `q` of its array. -/
theorem emb13 (t : Fin cfg0.N) (p : Fin 1024) (q : Fin 512) :
    ((cfg0.win 13).blk t).view.emb (ix2 p q) = ix2 (row t p) q := by
  obtain ⟨-, -, -, -, -, -, -, ⟨e0, e1⟩, -⟩ := idx_rows t
  funext a; apply Fin.ext
  match a with
  | ⟨0, _⟩ => show win0_13.index t (0 : Fin 2) * 1024 + 1 * p.val = t.val * 1024 + p.val; omega
  | ⟨1, _⟩ => show win0_13.index t (1 : Fin 2) * 512 + 1 * q.val = q.val; omega

/-- An index of the array is in point `t`'s block iff each coordinate is in the block's range on its axis. -/
theorem mem_blk13 (t : Fin cfg0.N) (i : S65536x512.Idx) :
    i ∈ ((cfg0.win 13).blk t).view.set ↔ ∀ a : Fin 2, win0_13.index t a * S1024x512.size a ≤ (i a).val ∧ (i a).val < win0_13.index t a * S1024x512.size a + S1024x512.size a := by
  show i ∈ ((View.whole main_v0_2).slice (win0_13.rect t)).set ↔ _
  rw [View.set_slice_whole, Rect.mem_set_unit]
  exact Iff.rfl

/-- Every index of the array is in some point's block: row `r` is in the block of point `r / 1024`. -/
theorem cover13 (i : S65536x512.Idx) :
    ∃ t : Fin cfg0.N, (cfg0.win 13).flush t = true ∧ i ∈ ((cfg0.win 13).blk t).view.set := by
  have hi0 : (i 0).val < 65536 := (i 0).isLt
  have hi1 : (i 1).val < 512 := (i 1).isLt
  have hN : cfg0.N = 64 := N_0
  have hlt : (i 0).val / 1024 < cfg0.N := by omega
  obtain ⟨-, -, -, -, -, -, -, ⟨e0, e1⟩, -⟩ := idx_rows ⟨(i 0).val / 1024, hlt⟩
  have e0' : win0_13.index ⟨(i 0).val / 1024, hlt⟩ (0 : Fin 2) = (i 0).val / 1024 := e0
  refine ⟨⟨(i 0).val / 1024, hlt⟩, flush0_13 _, ?_⟩
  rw [mem_blk13]
  intro a
  match a with
  | ⟨0, _⟩ =>
    show win0_13.index ⟨(i 0).val / 1024, hlt⟩ (0 : Fin 2) * 1024 ≤ (i 0).val ∧ (i 0).val < win0_13.index ⟨(i 0).val / 1024, hlt⟩ (0 : Fin 2) * 1024 + 1024
    omega
  | ⟨1, _⟩ =>
    show win0_13.index ⟨(i 0).val / 1024, hlt⟩ (1 : Fin 2) * 512 ≤ (i 1).val ∧ (i 1).val < win0_13.index ⟨(i 0).val / 1024, hlt⟩ (1 : Fin 2) * 512 + 512
    omega

/-! ## Output window 14 -/

/-- Row `p`, column `q` of window 14's block at point `t` sits at row `t · 1024 + p`, column `q` of its array. -/
theorem emb14 (t : Fin cfg0.N) (p : Fin 1024) (q : Fin 512) :
    ((cfg0.win 14).blk t).view.emb (ix2 p q) = ix2 (row t p) q := by
  obtain ⟨-, -, -, -, -, -, -, -, ⟨e0, e1⟩⟩ := idx_rows t
  funext a; apply Fin.ext
  match a with
  | ⟨0, _⟩ => show win0_14.index t (0 : Fin 2) * 1024 + 1 * p.val = t.val * 1024 + p.val; omega
  | ⟨1, _⟩ => show win0_14.index t (1 : Fin 2) * 512 + 1 * q.val = q.val; omega

/-- An index of the array is in point `t`'s block iff each coordinate is in the block's range on its axis. -/
theorem mem_blk14 (t : Fin cfg0.N) (i : S65536x512.Idx) :
    i ∈ ((cfg0.win 14).blk t).view.set ↔ ∀ a : Fin 2, win0_14.index t a * S1024x512.size a ≤ (i a).val ∧ (i a).val < win0_14.index t a * S1024x512.size a + S1024x512.size a := by
  show i ∈ ((View.whole main_v0_3).slice (win0_14.rect t)).set ↔ _
  rw [View.set_slice_whole, Rect.mem_set_unit]
  exact Iff.rfl

/-- Every index of the array is in some point's block: row `r` is in the block of point `r / 1024`. -/
theorem cover14 (i : S65536x512.Idx) :
    ∃ t : Fin cfg0.N, (cfg0.win 14).flush t = true ∧ i ∈ ((cfg0.win 14).blk t).view.set := by
  have hi0 : (i 0).val < 65536 := (i 0).isLt
  have hi1 : (i 1).val < 512 := (i 1).isLt
  have hN : cfg0.N = 64 := N_0
  have hlt : (i 0).val / 1024 < cfg0.N := by omega
  obtain ⟨-, -, -, -, -, -, -, -, ⟨e0, e1⟩⟩ := idx_rows ⟨(i 0).val / 1024, hlt⟩
  have e0' : win0_14.index ⟨(i 0).val / 1024, hlt⟩ (0 : Fin 2) = (i 0).val / 1024 := e0
  refine ⟨⟨(i 0).val / 1024, hlt⟩, flush0_14 _, ?_⟩
  rw [mem_blk14]
  intro a
  match a with
  | ⟨0, _⟩ =>
    show win0_14.index ⟨(i 0).val / 1024, hlt⟩ (0 : Fin 2) * 1024 ≤ (i 0).val ∧ (i 0).val < win0_14.index ⟨(i 0).val / 1024, hlt⟩ (0 : Fin 2) * 1024 + 1024
    omega
  | ⟨1, _⟩ =>
    show win0_14.index ⟨(i 0).val / 1024, hlt⟩ (1 : Fin 2) * 512 ≤ (i 1).val ∧ (i 1).val < win0_14.index ⟨(i 0).val / 1024, hlt⟩ (1 : Fin 2) * 512 + 512
    omega

end Cert.Cell.Blocks

end
-- ==== Proof.Payload.lean ====
/-
  The kernel body's payloads, read at one position of a 1024 × 512 block.

  Row p, column q of each array the body computes is a scalar function of the entries at that position and of one
  pre-activation, or two. The pre-activation is the only place where a sum occurs: a matrix product into a zero
  accumulator, read at (p, q), is the inner product of row p of the left factor with column q of the right one; the
  rounding of the factors to the shorter format is the identity on the extended reals; and the bias, a row of 512
  entries cast to a 1 × 512 array and repeated over the 1024 rows, reads at (p, q) as its entry q. The sums are
  grouped as the specification groups them, so no law of addition is needed. Everything after the pre-activation is
  pointwise, and the only law used is that zero minus s is −s.
-/
import proofs.«146297_j23545010717396_1_alg».proof.Proof.Spec
import proofs.«146297_j23545010717396_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Cell.Kern.Aux
open Cert.KernelIdeal Cert.KernelIdeal.Gen

/-! ## A matrix product into a zero accumulator, at one position

The product's entry at an index is a sum over the positions of the one contracted axis, the factors read at indices
made from the result's index and the position. Coordinate by coordinate these are: the result's row and the position
for the left factor, the position and the result's column for the right one. -/

/-- Left factor, row coordinate: the row of the result. -/
theorem mmX_lhs0 (i : S1024x512.Idx) (c : dot_S1024x256_S256x512_S1024x512_1_0_0_1_n_n.contr.Idx) :
    (dot_S1024x256_S256x512_S1024x512_1_0_0_1_n_n.lhsIdx i c 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl

/-- Left factor, column coordinate: the summation position. -/
theorem mmX_lhs1 (i : S1024x512.Idx) (c : dot_S1024x256_S256x512_S1024x512_1_0_0_1_n_n.contr.Idx) :
    (dot_S1024x256_S256x512_S1024x512_1_0_0_1_n_n.lhsIdx i c 1).val = (c ⟨0, by decide⟩).val :=
  dot_S1024x256_S256x512_S1024x512_1_0_0_1_n_n.lhsIdx_val_of_single rfl i c

/-- Right factor, row coordinate: the summation position. -/
theorem mmX_rhs0 (i : S1024x512.Idx) (c : dot_S1024x256_S256x512_S1024x512_1_0_0_1_n_n.contr.Idx) :
    (dot_S1024x256_S256x512_S1024x512_1_0_0_1_n_n.rhsIdx i c 0).val = (c ⟨0, by decide⟩).val :=
  dot_S1024x256_S256x512_S1024x512_1_0_0_1_n_n.rhsIdx_val_of_single rfl i c

/-- Right factor, column coordinate: the column of the result. -/
theorem mmX_rhs1 (i : S1024x512.Idx) (c : dot_S1024x256_S256x512_S1024x512_1_0_0_1_n_n.contr.Idx) :
    (dot_S1024x256_S256x512_S1024x512_1_0_0_1_n_n.rhsIdx i c 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- The product of a 1024 × 256 matrix with a 256 × 512 one, accumulated from zero: its entry at row p, column q is
    the sum over k of the left factor at (p, k) times the right factor at (k, q). -/
theorem mmX_at (l : FVec Ideal S1024x256 .bf16) (r : FVec Ideal S256x512 .bf16) (p : Fin 1024) (q : Fin 512) :
    matmul (F := Ideal) dot_S1024x256_S256x512_S1024x512_1_0_0_1_n_n none l r (constant (F := Ideal) S1024x512 .f32 0x00000000#32) (ix2 p q)
      = ∑ k : Fin 256, l (ix2 p k) * r (ix2 k q) := by
  refine (Ideal.matmul_constant_zero_apply dot_S1024x256_S256x512_S1024x512_1_0_0_1_n_n none l r (ix2 p q)).trans ?_
  rw [← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p q) ((ValueIdx.contrEquiv1 dot_S1024x256_S256x512_S1024x512_1_0_0_1_n_n 256 rfl rfl).symm k) = ix2 p k :=
    funext fun a => Fin.ext (by
      match a with
      | ⟨0, _⟩ => exact mmX_lhs0 _ _
      | ⟨1, _⟩ => exact (mmX_lhs1 _ _).trans hk)
  have er : dot_S1024x256_S256x512_S1024x512_1_0_0_1_n_n.rhsIdx (ix2 p q) ((ValueIdx.contrEquiv1 dot_S1024x256_S256x512_S1024x512_1_0_0_1_n_n 256 rfl rfl).symm k) = ix2 k q :=
    funext fun a => Fin.ext (by
      match a with
      | ⟨0, _⟩ => exact (mmX_rhs0 _ _).trans hk
      | ⟨1, _⟩ => exact mmX_rhs1 _ _)
  rw [el, er]

/-- Left factor, row coordinate: the row of the result. -/
theorem mmH_lhs0 (i : S1024x512.Idx) (c : dot_S1024x512_S512x512_S1024x512_1_0_0_1_n_n.contr.Idx) :
    (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl

/-- Left factor, column coordinate: the summation position. -/
theorem mmH_lhs1 (i : S1024x512.Idx) (c : dot_S1024x512_S512x512_S1024x512_1_0_0_1_n_n.contr.Idx) :
    (dot_S1024x512_S512x512_S1024x512_1_0_0_1_n_n.lhsIdx i c 1).val = (c ⟨0, by decide⟩).val :=
  dot_S1024x512_S512x512_S1024x512_1_0_0_1_n_n.lhsIdx_val_of_single rfl i c

/-- Right factor, row coordinate: the summation position. -/
theorem mmH_rhs0 (i : S1024x512.Idx) (c : dot_S1024x512_S512x512_S1024x512_1_0_0_1_n_n.contr.Idx) :
    (dot_S1024x512_S512x512_S1024x512_1_0_0_1_n_n.rhsIdx i c 0).val = (c ⟨0, by decide⟩).val :=
  dot_S1024x512_S512x512_S1024x512_1_0_0_1_n_n.rhsIdx_val_of_single rfl i c

/-- Right factor, column coordinate: the column of the result. -/
theorem mmH_rhs1 (i : S1024x512.Idx) (c : dot_S1024x512_S512x512_S1024x512_1_0_0_1_n_n.contr.Idx) :
    (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- The product of a 1024 × 512 matrix with a 512 × 512 one, accumulated from zero: its entry at row p, column q is
    the sum over k of the left factor at (p, k) times the right factor at (k, q). -/
theorem mmH_at (l : FVec Ideal S1024x512 .bf16) (r : FVec Ideal S512x512 .bf16) (p : Fin 1024) (q : Fin 512) :
    matmul (F := Ideal) dot_S1024x512_S512x512_S1024x512_1_0_0_1_n_n none l r (constant (F := Ideal) S1024x512 .f32 0x00000000#32) (ix2 p q)
      = ∑ k : Fin 512, l (ix2 p k) * r (ix2 k q) := by
  refine (Ideal.matmul_constant_zero_apply dot_S1024x512_S512x512_S1024x512_1_0_0_1_n_n none l r (ix2 p q)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k :=
    funext fun a => Fin.ext (by
      match a with
      | ⟨0, _⟩ => exact mmH_lhs0 _ _
      | ⟨1, _⟩ => exact (mmH_lhs1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q :=
    funext fun a => Fin.ext (by
      match a with
      | ⟨0, _⟩ => exact (mmH_rhs0 _ _).trans hk
      | ⟨1, _⟩ => exact mmH_rhs1 _ _)
  rw [el, er]

/-! ## The bias row, at one position -/

/-- A row of 512 entries, cast to a 1 × 512 array and repeated over 1024 rows, reads at row p, column q as its
    entry q, whatever the row. -/
theorem bias_at (b : Vec Ideal S512 .f32) (p : Fin 1024) (q : Fin 512) :
    broadcastTo S1024x512 (shapeCast S1x512 b shapeCasts_S512_S1x512) broadcasts_S1x512_S1024x512 (ix2 p q)
      = b (ix1 q) :=
  (broadcastTo_1b_ab_apply (shapeCast S1x512 b shapeCasts_S512_S1x512) broadcasts_S1x512_S1024x512 p q).trans
    (shapeCast_a_1a_apply b shapeCasts_S512_S1x512 (0 : Fin 1) q)

end Cert.Cell.Kern.Aux

namespace Cert.Cell.Kern
open Cert.KernelIdeal Cert.KernelIdeal.Gen

variable (x0 : Vec Ideal S1024x256 .f32) (x1 x2 x3 x4 : Vec Ideal S1024x512 .f32) (x5 x6 : Vec Ideal S256x512 .f32)
  (x7 x8 : Vec Ideal S512x512 .f32) (x9 x10 : Vec Ideal S512 .f32) (p : Fin 1024) (q : Fin 512)

/-! ## The two pre-activations -/

/-- The forget pair's pre-activation: the two matrix products, each an inner product at (p, q) since the rounding of
    the factors is the identity here, added, and the bias entry q added to their sum. -/
theorem pay6_at : k0_pay6 (F := Ideal) x0 x1 x5 x7 x9 (ix2 p q) = Cert.Cell.pre (R := 1024) x0 x1 x5 x7 x9 p q := by
  unfold k0_pay6 k0_pay4 k0_pay5 Cert.Cell.pre
  exact congrArg₂ (· + ·)
    (congrArg₂ (· + ·)
      (Aux.mmX_at (truncf .bf16 x0 bitsLt_bf16_f32) (truncf .bf16 x5 bitsLt_bf16_f32) p q)
      (Aux.mmH_at (truncf .bf16 x1 bitsLt_bf16_f32) (truncf .bf16 x7 bitsLt_bf16_f32) p q))
    (Aux.bias_at x9 p q)

/-- The candidate pair's pre-activation: the same with the other weights and bias. -/
theorem pay7_at : k0_pay7 (F := Ideal) x0 x1 x6 x8 x10 (ix2 p q) = Cert.Cell.pre (R := 1024) x0 x1 x6 x8 x10 p q := by
  unfold k0_pay7 k0_pay4 k0_pay5 Cert.Cell.pre
  exact congrArg₂ (· + ·)
    (congrArg₂ (· + ·)
      (Aux.mmX_at (truncf .bf16 x0 bitsLt_bf16_f32) (truncf .bf16 x6 bitsLt_bf16_f32) p q)
      (Aux.mmH_at (truncf .bf16 x1 bitsLt_bf16_f32) (truncf .bf16 x8 bitsLt_bf16_f32) p q))
    (Aux.bias_at x10 p q)

/-! ## The pointwise part

Each operation on arrays acts entry by entry, and a scalar repeated over the block reads as itself; so each payload at
(p, q) is the scalar expression on the entries at (p, q), in which the pre-activations are replaced by their sums. -/

/-- The new stabilizer: the larger of the pre-activation plus the old stabilizer, and zero. -/
theorem stab_at : k0_pay8 (F := Ideal) x0 x1 x5 x7 x9 x4 (ix2 p q)
    = Cert.Cell.stab (Cert.Cell.pre (R := 1024) x0 x1 x5 x7 x9 p q) (x4 (ix2 p q)) := by
  unfold k0_pay8 Cert.Cell.stab
  exact congrArg (fun u => max (u + x4 (ix2 p q)) (Ideal.ofBits .f32 0x00000000#32)) (pay6_at x0 x1 x5 x7 x9 p q)

/-- The input gate: the body takes the exponential of zero minus the stabilizer, which is the exponential of its
    negative. -/
theorem inG_at : k0_pay9 (F := Ideal) x0 x1 x5 x7 x9 x4 (ix2 p q)
    = Cert.Cell.inG (Cert.Cell.pre (R := 1024) x0 x1 x5 x7 x9 p q) (x4 (ix2 p q)) := by
  unfold k0_pay9 Cert.Cell.inG
  show Ideal.exp (Ideal.ofBits .f32 0x00000000#32 - k0_pay8 (F := Ideal) x0 x1 x5 x7 x9 x4 (ix2 p q)) = _
  rw [stab_at, Cert.Cell.zero_word_sub]

/-- The forget gate: the exponential of the pre-activation plus the old stabilizer, minus the new stabilizer. -/
theorem keepG_at : k0_pay10 (F := Ideal) x0 x1 x5 x7 x9 x4 (ix2 p q)
    = Cert.Cell.keepG (Cert.Cell.pre (R := 1024) x0 x1 x5 x7 x9 p q) (x4 (ix2 p q)) := by
  unfold k0_pay10 Cert.Cell.keepG
  show Ideal.exp ((k0_pay6 (F := Ideal) x0 x1 x5 x7 x9 (ix2 p q) + x4 (ix2 p q))
      - k0_pay8 (F := Ideal) x0 x1 x5 x7 x9 x4 (ix2 p q)) = _
  rw [stab_at, pay6_at]

/-- The new cell state: the forget gate times the old cell state, plus the input gate times the hyperbolic tangent of
    the candidate's pre-activation. -/
theorem cell_at : k0_pay1 (F := Ideal) (k0_pay7 x0 x1 x6 x8 x10) (k0_pay9 x0 x1 x5 x7 x9 x4) (k0_pay10 x0 x1 x5 x7 x9 x4) x2 (ix2 p q)
    = Cert.Cell.cell (Cert.Cell.pre (R := 1024) x0 x1 x5 x7 x9 p q) (Cert.Cell.pre (R := 1024) x0 x1 x6 x8 x10 p q) (x4 (ix2 p q)) (x2 (ix2 p q)) := by
  unfold k0_pay1 Cert.Cell.cell
  show k0_pay10 (F := Ideal) x0 x1 x5 x7 x9 x4 (ix2 p q) * x2 (ix2 p q)
      + k0_pay9 (F := Ideal) x0 x1 x5 x7 x9 x4 (ix2 p q) * Ideal.tanh (k0_pay7 (F := Ideal) x0 x1 x6 x8 x10 (ix2 p q)) = _
  rw [keepG_at, inG_at, pay7_at]

/-- The new normalizer: the forget gate times the old normalizer, plus the input gate. -/
theorem norm_at : k0_pay2 (F := Ideal) (k0_pay9 x0 x1 x5 x7 x9 x4) (k0_pay10 x0 x1 x5 x7 x9 x4) x3 (ix2 p q)
    = Cert.Cell.norm (Cert.Cell.pre (R := 1024) x0 x1 x5 x7 x9 p q) (x4 (ix2 p q)) (x3 (ix2 p q)) := by
  unfold k0_pay2 Cert.Cell.norm
  show k0_pay10 (F := Ideal) x0 x1 x5 x7 x9 x4 (ix2 p q) * x3 (ix2 p q)
      + k0_pay9 (F := Ideal) x0 x1 x5 x7 x9 x4 (ix2 p q) = _
  rw [keepG_at, inG_at]

/-- The new hidden state: the hyperbolic tangent of the new cell state over the new normalizer, the normalizer kept at
    least the small constant, whose word stands unevaluated on both sides. -/
theorem hid_at : k0_pay3 (F := Ideal) (k0_pay7 x0 x1 x6 x8 x10) (k0_pay9 x0 x1 x5 x7 x9 x4) (k0_pay10 x0 x1 x5 x7 x9 x4) x2 x3 (ix2 p q)
    = Cert.Cell.hid (Cert.Cell.pre (R := 1024) x0 x1 x5 x7 x9 p q) (Cert.Cell.pre (R := 1024) x0 x1 x6 x8 x10 p q) (x4 (ix2 p q)) (x2 (ix2 p q)) (x3 (ix2 p q)) := by
  unfold k0_pay3 Cert.Cell.hid
  show Ideal.tanh (Ideal.div
      (k0_pay1 (F := Ideal) (k0_pay7 x0 x1 x6 x8 x10) (k0_pay9 x0 x1 x5 x7 x9 x4) (k0_pay10 x0 x1 x5 x7 x9 x4) x2 (ix2 p q))
      (max (k0_pay2 (F := Ideal) (k0_pay9 x0 x1 x5 x7 x9 x4) (k0_pay10 x0 x1 x5 x7 x9 x4) x3 (ix2 p q))
        (Ideal.ofBits .f32 0x322BCC77#32))) = _
  rw [cell_at, norm_at]

end Cert.Cell.Kern

end
-- ==== Proof.BlockValue.lean ====
/-
  One element of a block of the kernel's results, as the specification's array at the matching array position.

  Let `X₀ … X₁₀` be the eleven blocks the body loads at one grid point and `A₀ … A₁₀` the eleven whole arrays. Suppose
  row `p` of the two row blocks that enter the inner products is row `P` of their arrays, the state blocks agree with
  their arrays at (`p`, `q`) against (`P`, `q`), and the weight and bias blocks are their whole arrays. Then the body's
  payload for each result at (`p`, `q`) is the specification's result array at (`P`, `q`): the payload is the pointwise
  function of the two pre-activations and the state entries, a pre-activation depends on the row blocks only through
  row `p`, and everything else is equal entry by entry.
-/
import proofs.«146297_j23545010717396_1_alg».proof.Proof.Spec
import proofs.«146297_j23545010717396_1_alg».proof.Proof.Payload

noncomputable section

namespace Cert.Cell.BlockValue

open Cert.KernelIdeal Cert.KernelIdeal.Gen Idealize.ShloMosaic Idealize.ShloMosaic.ValueIdx Cert.Cell

variable (X0 : Vec Ideal S1024x256 .f32) (X1 X2 X3 X4 : Vec Ideal S1024x512 .f32) (X5 X6 : Vec Ideal S256x512 .f32)
  (X7 X8 : Vec Ideal S512x512 .f32) (X9 X10 : Vec Ideal S512 .f32)
  (A0 : SX.Idx → EReal) (A1 A2 A3 A4 : SH.Idx → EReal) (A5 A6 : SWx.Idx → EReal) (A7 A8 : SWh.Idx → EReal)
  (A9 A10 : SB.Idx → EReal) (p : Fin 1024) (P : Fin 65536) (q : Fin 512)

/-- The stabilizer payload at (`p`, `q`) is the stabilizer array at (`P`, `q`). -/
theorem stab_block (h0 : ∀ k : Fin 256, X0 (ix2 p k) = A0 (ix2 P k)) (h1 : ∀ k : Fin 512, X1 (ix2 p k) = A1 (ix2 P k))
    (h4 : X4 (ix2 p q) = A4 (ix2 P q)) (h5 : X5 = A5) (h7 : X7 = A7) (h9 : X9 = A9) :
    k0_pay8 (F := Ideal) X0 X1 X5 X7 X9 X4 (ix2 p q) = mOut A0 A1 A4 A5 A7 A9 (ix2 P q) := by
  refine (Kern.stab_at X0 X1 X4 X5 X7 X9 p q).trans ?_
  rw [h4, h5, h7, h9, pre_congr X0 X1 A0 A1 A5 A7 A9 p P q h0 h1]
  rfl

/-- The cell payload at (`p`, `q`) is the cell array at (`P`, `q`). -/
theorem cell_block (h0 : ∀ k : Fin 256, X0 (ix2 p k) = A0 (ix2 P k)) (h1 : ∀ k : Fin 512, X1 (ix2 p k) = A1 (ix2 P k))
    (h2 : X2 (ix2 p q) = A2 (ix2 P q)) (h4 : X4 (ix2 p q) = A4 (ix2 P q))
    (h5 : X5 = A5) (h6 : X6 = A6) (h7 : X7 = A7) (h8 : X8 = A8) (h9 : X9 = A9) (h10 : X10 = A10) :
    k0_pay1 (F := Ideal) (k0_pay7 X0 X1 X6 X8 X10) (k0_pay9 X0 X1 X5 X7 X9 X4) (k0_pay10 X0 X1 X5 X7 X9 X4) X2 (ix2 p q)
      = cOut A0 A1 A2 A4 A5 A6 A7 A8 A9 A10 (ix2 P q) := by
  refine (Kern.cell_at X0 X1 X2 X4 X5 X6 X7 X8 X9 X10 p q).trans ?_
  rw [h2, h4, h5, h6, h7, h8, h9, h10, pre_congr X0 X1 A0 A1 A5 A7 A9 p P q h0 h1,
    pre_congr X0 X1 A0 A1 A6 A8 A10 p P q h0 h1]
  rfl

/-- The normalizer payload at (`p`, `q`) is the normalizer array at (`P`, `q`). -/
theorem norm_block (h0 : ∀ k : Fin 256, X0 (ix2 p k) = A0 (ix2 P k)) (h1 : ∀ k : Fin 512, X1 (ix2 p k) = A1 (ix2 P k))
    (h3 : X3 (ix2 p q) = A3 (ix2 P q)) (h4 : X4 (ix2 p q) = A4 (ix2 P q)) (h5 : X5 = A5) (h7 : X7 = A7) (h9 : X9 = A9) :
    k0_pay2 (F := Ideal) (k0_pay9 X0 X1 X5 X7 X9 X4) (k0_pay10 X0 X1 X5 X7 X9 X4) X3 (ix2 p q)
      = nOut A0 A1 A3 A4 A5 A7 A9 (ix2 P q) := by
  refine (Kern.norm_at X0 X1 X3 X4 X5 X7 X9 p q).trans ?_
  rw [h3, h4, h5, h7, h9, pre_congr X0 X1 A0 A1 A5 A7 A9 p P q h0 h1]
  rfl

/-- The hidden payload at (`p`, `q`) is the hidden array at (`P`, `q`). -/
theorem hid_block (h0 : ∀ k : Fin 256, X0 (ix2 p k) = A0 (ix2 P k)) (h1 : ∀ k : Fin 512, X1 (ix2 p k) = A1 (ix2 P k))
    (h2 : X2 (ix2 p q) = A2 (ix2 P q)) (h3 : X3 (ix2 p q) = A3 (ix2 P q)) (h4 : X4 (ix2 p q) = A4 (ix2 P q))
    (h5 : X5 = A5) (h6 : X6 = A6) (h7 : X7 = A7) (h8 : X8 = A8) (h9 : X9 = A9) (h10 : X10 = A10) :
    k0_pay3 (F := Ideal) (k0_pay7 X0 X1 X6 X8 X10) (k0_pay9 X0 X1 X5 X7 X9 X4) (k0_pay10 X0 X1 X5 X7 X9 X4) X2 X3 (ix2 p q)
      = hOut A0 A1 A2 A3 A4 A5 A6 A7 A8 A9 A10 (ix2 P q) := by
  refine (Kern.hid_at X0 X1 X2 X3 X4 X5 X6 X7 X8 X9 X10 p q).trans ?_
  rw [h2, h3, h4, h5, h6, h7, h8, h9, h10, pre_congr X0 X1 A0 A1 A5 A7 A9 p P q h0 h1,
    pre_congr X0 X1 A0 A1 A6 A8 A10 p P q h0 h1]
  rfl

end Cert.Cell.BlockValue

end
-- ==== Proof.KernelValue.lean ====
/-
  What the kernel's four result arrays hold after its run.

  The body stores each result block whole, so what a grid point writes back is the body's payload of the blocks it
  loaded. Element (`p`, `q`) of that payload is the specification's result at row `t · 1024 + p`, column `q` of the
  argument arrays: the pre-activations use only row `p` of the two row blocks, which is row `t · 1024 + p` of their
  arrays, with the weights and biases whole; the state entries are read at the same position. So point `t` writes
  block `t` of the specification's array, the 64 blocks cover the array, and the array after the run is the
  specification's array of the arguments as launched.
-/
import proofs.«146297_j23545010717396_1_alg».proof.Proof.Blocks
import proofs.«146297_j23545010717396_1_alg».proof.Proof.BlockValue

noncomputable section

namespace Cert.Cell.KernelValue

open Cert.KernelIdeal Cert.KernelIdeal.Gen Idealize.ShloMosaic Idealize.ShloMosaic.TcCoe Idealize.SL.Sem
open Idealize.ShloMosaic.ValueIdx Cert.Cell Cert.Cell.Blocks
open Idealize.ShloMosaic.Pipeline (Dat)

variable (m : (ℓ : Loc nD τ sig) → Buf (Elt Ideal) ℓ) (ρ : Dev nD → PrngReg)

/-- The offset of a whole-block rectangle of rank two is zero on both axes. -/
theorem hz2 : (![0, 0] : Fin 2 → Nat) = fun _ => 0 := funext fun a => by fin_cases a <;> rfl

/-- The offset of a whole-block rectangle of rank one is zero. -/
theorem hz1 : (![0] : Fin 1 → Nat) = fun _ => 0 := funext fun a => by fin_cases a; rfl

/-! ## Output window 11: the hidden array -/

/-- What point `t` writes back to the hidden array is block `t` of the specification's hidden array of the
    argument arrays: element (`p`, `q`) of the block is the body's payload there, which is the array's element at row
    `t · 1024 + p`, column `q`. -/
theorem flushed11_eq (c : Dev nD) (t : Fin cfg0.N) :
    (dats m 0 c).flushed 11 t = ((cfg0.win 11).blk t).view.read (Elt Ideal)
      (hOut (V m c main_arg0) (V m c main_arg1) (V m c main_arg2) (V m c main_arg3) (V m c main_arg4) (V m c main_arg5) (V m c main_arg6) (V m c main_arg7) (V m c main_arg8) (V m c main_arg9) (V m c main_arg10)) := by
  show (cfg0.win 11).cut (grid0.coords t) ((dats m 0 c).after 11 t) = _
  rw [after0_11]
  unfold out0_11
  rw [View.canon_unit_zero hz2]
  simp only [View.ld_unit_zero (S := S1024x256) hz2, View.ld_unit_zero (S := S1024x512) hz2,
    View.ld_unit_zero (S := S256x512) hz2, View.ld_unit_zero (S := S512x512) hz2, View.ld_unit_zero (S := S512) hz1]
  funext j
  obtain ⟨p, q, rfl⟩ : ∃ (p : Fin 1024) (q : Fin 512), j = ix2 p q := ⟨j 0, j 1, eq_ix2 j⟩
  show k0_pay3 (k0_pay7 (iblk m c 0 t) (iblk m c 1 t) (iblk m c 6 t) (iblk m c 8 t) (iblk m c 10 t)) (k0_pay9 (iblk m c 0 t) (iblk m c 1 t) (iblk m c 5 t) (iblk m c 7 t) (iblk m c 9 t) (iblk m c 4 t)) (k0_pay10 (iblk m c 0 t) (iblk m c 1 t) (iblk m c 5 t) (iblk m c 7 t) (iblk m c 9 t) (iblk m c 4 t)) (iblk m c 2 t) (iblk m c 3 t) (ix2 p q)
    = hOut (V m c main_arg0) (V m c main_arg1) (V m c main_arg2) (V m c main_arg3) (V m c main_arg4) (V m c main_arg5) (V m c main_arg6) (V m c main_arg7) (V m c main_arg8) (V m c main_arg9) (V m c main_arg10)
        (((cfg0.win 11).blk t).view.emb (ix2 p q))
  rw [emb11 t p q]
  exact BlockValue.hid_block (iblk m c 0 t) (iblk m c 1 t) (iblk m c 2 t) (iblk m c 3 t) (iblk m c 4 t) (iblk m c 5 t) (iblk m c 6 t) (iblk m c 7 t) (iblk m c 8 t) (iblk m c 9 t) (iblk m c 10 t)
    (V m c main_arg0) (V m c main_arg1) (V m c main_arg2) (V m c main_arg3) (V m c main_arg4) (V m c main_arg5) (V m c main_arg6) (V m c main_arg7) (V m c main_arg8) (V m c main_arg9) (V m c main_arg10) p (row t p) q
    (read0 m c t p) (read1 m c t p) (read2 m c t p q) (read3 m c t p q) (read4 m c t p q) (read5 m c t) (read6 m c t) (read7 m c t) (read8 m c t) (read9 m c t) (read10 m c t)

/-- After the run the hidden array is the specification's, of the arguments as launched: the 64 blocks cover it. -/
theorem final11 (c : Dev nD) :
    (dats m 0 c).arrAt 11 cfg0.N = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 11 (hOut (V m c main_arg0) (V m c main_arg1) (V m c main_arg2) (V m c main_arg3) (V m c main_arg4) (V m c main_arg5) (V m c main_arg6) (V m c main_arg7) (V m c main_arg8) (V m c main_arg9) (V m c main_arg10))
    (fun t _ => flushed11_eq m c t) cover11

/-! ## Output window 12: the cell array -/

/-- What point `t` writes back to the cell array is block `t` of the specification's cell array of the
    argument arrays: element (`p`, `q`) of the block is the body's payload there, which is the array's element at row
    `t · 1024 + p`, column `q`. -/
theorem flushed12_eq (c : Dev nD) (t : Fin cfg0.N) :
    (dats m 0 c).flushed 12 t = ((cfg0.win 12).blk t).view.read (Elt Ideal)
      (cOut (V m c main_arg0) (V m c main_arg1) (V m c main_arg2) (V m c main_arg4) (V m c main_arg5) (V m c main_arg6) (V m c main_arg7) (V m c main_arg8) (V m c main_arg9) (V m c main_arg10)) := by
  show (cfg0.win 12).cut (grid0.coords t) ((dats m 0 c).after 12 t) = _
  rw [after0_12]
  unfold out0_12
  rw [View.canon_unit_zero hz2]
  simp only [View.ld_unit_zero (S := S1024x256) hz2, View.ld_unit_zero (S := S1024x512) hz2,
    View.ld_unit_zero (S := S256x512) hz2, View.ld_unit_zero (S := S512x512) hz2, View.ld_unit_zero (S := S512) hz1]
  funext j
  obtain ⟨p, q, rfl⟩ : ∃ (p : Fin 1024) (q : Fin 512), j = ix2 p q := ⟨j 0, j 1, eq_ix2 j⟩
  show k0_pay1 (k0_pay7 (iblk m c 0 t) (iblk m c 1 t) (iblk m c 6 t) (iblk m c 8 t) (iblk m c 10 t)) (k0_pay9 (iblk m c 0 t) (iblk m c 1 t) (iblk m c 5 t) (iblk m c 7 t) (iblk m c 9 t) (iblk m c 4 t)) (k0_pay10 (iblk m c 0 t) (iblk m c 1 t) (iblk m c 5 t) (iblk m c 7 t) (iblk m c 9 t) (iblk m c 4 t)) (iblk m c 2 t) (ix2 p q)
    = cOut (V m c main_arg0) (V m c main_arg1) (V m c main_arg2) (V m c main_arg4) (V m c main_arg5) (V m c main_arg6) (V m c main_arg7) (V m c main_arg8) (V m c main_arg9) (V m c main_arg10)
        (((cfg0.win 12).blk t).view.emb (ix2 p q))
  rw [emb12 t p q]
  exact BlockValue.cell_block (iblk m c 0 t) (iblk m c 1 t) (iblk m c 2 t) (iblk m c 4 t) (iblk m c 5 t) (iblk m c 6 t) (iblk m c 7 t) (iblk m c 8 t) (iblk m c 9 t) (iblk m c 10 t)
    (V m c main_arg0) (V m c main_arg1) (V m c main_arg2) (V m c main_arg4) (V m c main_arg5) (V m c main_arg6) (V m c main_arg7) (V m c main_arg8) (V m c main_arg9) (V m c main_arg10) p (row t p) q
    (read0 m c t p) (read1 m c t p) (read2 m c t p q) (read4 m c t p q) (read5 m c t) (read6 m c t) (read7 m c t) (read8 m c t) (read9 m c t) (read10 m c t)

/-- After the run the cell array is the specification's, of the arguments as launched: the 64 blocks cover it. -/
theorem final12 (c : Dev nD) :
    (dats m 0 c).arrAt 12 cfg0.N = cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 12 (cOut (V m c main_arg0) (V m c main_arg1) (V m c main_arg2) (V m c main_arg4) (V m c main_arg5) (V m c main_arg6) (V m c main_arg7) (V m c main_arg8) (V m c main_arg9) (V m c main_arg10))
    (fun t _ => flushed12_eq m c t) cover12

/-! ## Output window 13: the normalizer array -/

/-- What point `t` writes back to the normalizer array is block `t` of the specification's normalizer array of the
    argument arrays: element (`p`, `q`) of the block is the body's payload there, which is the array's element at row
    `t · 1024 + p`, column `q`. -/
theorem flushed13_eq (c : Dev nD) (t : Fin cfg0.N) :
    (dats m 0 c).flushed 13 t = ((cfg0.win 13).blk t).view.read (Elt Ideal)
      (nOut (V m c main_arg0) (V m c main_arg1) (V m c main_arg3) (V m c main_arg4) (V m c main_arg5) (V m c main_arg7) (V m c main_arg9)) := by
  show (cfg0.win 13).cut (grid0.coords t) ((dats m 0 c).after 13 t) = _
  rw [after0_13]
  unfold out0_13
  rw [View.canon_unit_zero hz2]
  simp only [View.ld_unit_zero (S := S1024x256) hz2, View.ld_unit_zero (S := S1024x512) hz2,
    View.ld_unit_zero (S := S256x512) hz2, View.ld_unit_zero (S := S512x512) hz2, View.ld_unit_zero (S := S512) hz1]
  funext j
  obtain ⟨p, q, rfl⟩ : ∃ (p : Fin 1024) (q : Fin 512), j = ix2 p q := ⟨j 0, j 1, eq_ix2 j⟩
  show k0_pay2 (k0_pay9 (iblk m c 0 t) (iblk m c 1 t) (iblk m c 5 t) (iblk m c 7 t) (iblk m c 9 t) (iblk m c 4 t)) (k0_pay10 (iblk m c 0 t) (iblk m c 1 t) (iblk m c 5 t) (iblk m c 7 t) (iblk m c 9 t) (iblk m c 4 t)) (iblk m c 3 t) (ix2 p q)
    = nOut (V m c main_arg0) (V m c main_arg1) (V m c main_arg3) (V m c main_arg4) (V m c main_arg5) (V m c main_arg7) (V m c main_arg9)
        (((cfg0.win 13).blk t).view.emb (ix2 p q))
  rw [emb13 t p q]
  exact BlockValue.norm_block (iblk m c 0 t) (iblk m c 1 t) (iblk m c 3 t) (iblk m c 4 t) (iblk m c 5 t) (iblk m c 7 t) (iblk m c 9 t)
    (V m c main_arg0) (V m c main_arg1) (V m c main_arg3) (V m c main_arg4) (V m c main_arg5) (V m c main_arg7) (V m c main_arg9) p (row t p) q
    (read0 m c t p) (read1 m c t p) (read3 m c t p q) (read4 m c t p q) (read5 m c t) (read7 m c t) (read9 m c t)

/-- After the run the normalizer array is the specification's, of the arguments as launched: the 64 blocks cover it. -/
theorem final13 (c : Dev nD) :
    (dats m 0 c).arrAt 13 cfg0.N = nOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg9)) :=
  (dats m 0 c).arrAt_eq_of_cover 13 (nOut (V m c main_arg0) (V m c main_arg1) (V m c main_arg3) (V m c main_arg4) (V m c main_arg5) (V m c main_arg7) (V m c main_arg9))
    (fun t _ => flushed13_eq m c t) cover13

/-! ## Output window 14: the stabilizer array -/

/-- What point `t` writes back to the stabilizer array is block `t` of the specification's stabilizer array of the
    argument arrays: element (`p`, `q`) of the block is the body's payload there, which is the array's element at row
    `t · 1024 + p`, column `q`. -/
theorem flushed14_eq (c : Dev nD) (t : Fin cfg0.N) :
    (dats m 0 c).flushed 14 t = ((cfg0.win 14).blk t).view.read (Elt Ideal)
      (mOut (V m c main_arg0) (V m c main_arg1) (V m c main_arg4) (V m c main_arg5) (V m c main_arg7) (V m c main_arg9)) := by
  show (cfg0.win 14).cut (grid0.coords t) ((dats m 0 c).after 14 t) = _
  rw [after0_14]
  unfold out0_14
  rw [View.canon_unit_zero hz2]
  simp only [View.ld_unit_zero (S := S1024x256) hz2, View.ld_unit_zero (S := S1024x512) hz2,
    View.ld_unit_zero (S := S256x512) hz2, View.ld_unit_zero (S := S512x512) hz2, View.ld_unit_zero (S := S512) hz1]
  funext j
  obtain ⟨p, q, rfl⟩ : ∃ (p : Fin 1024) (q : Fin 512), j = ix2 p q := ⟨j 0, j 1, eq_ix2 j⟩
  show k0_pay8 (iblk m c 0 t) (iblk m c 1 t) (iblk m c 5 t) (iblk m c 7 t) (iblk m c 9 t) (iblk m c 4 t) (ix2 p q)
    = mOut (V m c main_arg0) (V m c main_arg1) (V m c main_arg4) (V m c main_arg5) (V m c main_arg7) (V m c main_arg9)
        (((cfg0.win 14).blk t).view.emb (ix2 p q))
  rw [emb14 t p q]
  exact BlockValue.stab_block (iblk m c 0 t) (iblk m c 1 t) (iblk m c 4 t) (iblk m c 5 t) (iblk m c 7 t) (iblk m c 9 t)
    (V m c main_arg0) (V m c main_arg1) (V m c main_arg4) (V m c main_arg5) (V m c main_arg7) (V m c main_arg9) p (row t p) q
    (read0 m c t p) (read1 m c t p) (read4 m c t p q) (read5 m c t) (read7 m c t) (read9 m c t)

/-- After the run the stabilizer array is the specification's, of the arguments as launched: the 64 blocks cover it. -/
theorem final14 (c : Dev nD) :
    (dats m 0 c).arrAt 14 cfg0.N = mOut (m ((c : Thread nD τ).loc main_arg0)) (m ((c : Thread nD τ).loc main_arg1)) (m ((c : Thread nD τ).loc main_arg4)) (m ((c : Thread nD τ).loc main_arg5)) (m ((c : Thread nD τ).loc main_arg7)) (m ((c : Thread nD τ).loc main_arg9)) :=
  (dats m 0 c).arrAt_eq_of_cover 14 (mOut (V m c main_arg0) (V m c main_arg1) (V m c main_arg4) (V m c main_arg5) (V m c main_arg7) (V m c main_arg9))
    (fun t _ => flushed14_eq m c t) cover14

/-! ## The run -/

/-- Every weakly fair execution of the kernel's program terminates with the four result arrays at the specification's
    four arrays of the arguments, and the arguments unchanged. -/
theorem run : θ_run defs (onTc (τ := τ) (main (F := Ideal))) ⟨m, fun _ => 0, ρ⟩ fun r => ∀ c : Dev nD,
      r.2.mem ((c : Thread nD τ).loc main_v0_0) = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_1) = cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_2) = nOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg9))
      ∧ r.2.mem ((c : Thread nD τ).loc main_v0_3) = mOut (m ((c : Thread nD τ).loc main_arg0)) (m ((c : Thread nD τ).loc main_arg1)) (m ((c : Thread nD τ).loc main_arg4)) (m ((c : Thread nD τ).loc main_arg5)) (m ((c : Thread nD τ).loc main_arg7)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c),
      (h c).2.2.1.trans (final13 m c), (h c).2.2.2.1.trans (final14 m c), (h c).2.2.2.2⟩)
    (Cert.KernelIdeal.Value.run_blocks m ρ)

end Cert.Cell.KernelValue

end
-- ==== Proof.RefSpec.lean ====
/-
  The reference program computes the specification's four arrays.

  The reference is read one result element at a time.  At position `i = (p, q)` its first stages form
      (∑ₖ x[p,k]·w[k,q] + ∑ₖ h[p,k]·r[k,q]) + b[q],
  two inner products over row `p` and a bias entry, grouped exactly as the specification's pre-activation groups
  them; so the forget stage is `pre` of the forget weights and the candidate stage is `pre` of the candidate weights.
  Every later stage is one pointwise operation on earlier stages at the same position, and the specification's
  `stab`, `inG`, `keepG`, `cell`, `norm`, `hid` are those same operations in the same order: the larger of `u + m` and
  the zero word, `exp` of its negation, `exp` of `(u + m)` less it, the two products and their sum, and `tanh` of the
  quotient by the larger of the normalizer and the ε word.  No law of arithmetic is used, so nothing is asked of the
  inputs, and the two literal words are never evaluated.
-/
import proofs.«146297_j23545010717396_1_alg».proof.Proof.Spec
import proofs.«146297_j23545010717396_1_alg».proof.Proof.Gen.ReferenceIdeal.Read

noncomputable section

open Idealize.ShloMosaic Idealize.ShloMosaic.ValueIdx
open scoped BigOperators

namespace Cert.Cell.Ref.Aux
open Cert.ReferenceIdeal Cert.ReferenceIdeal.Read

/-! ## The positions the reference reads are the specification's -/

/-- The left operand of the input product is read at row `i 0`, column `k`. -/
theorem lidx_x (i : S65536x512.Idx) (k : Fin 256) : lidx_main_v0 i k = ix2 (i 0) k :=
  funext fun a => Fin.ext (by match a with | ⟨0, _⟩ => rfl | ⟨1, _⟩ => rfl)

/-- The right operand of the input product is read at row `k`, column `i 1`. -/
theorem ridx_x (i : S65536x512.Idx) (k : Fin 256) : ridx_main_v0 i k = ix2 k (i 1) :=
  funext fun a => Fin.ext (by match a with | ⟨0, _⟩ => rfl | ⟨1, _⟩ => rfl)

/-- The left operand of the recurrent product is read at row `i 0`, column `k`. -/
theorem lidx_h (i : S65536x512.Idx) (k : Fin 512) : lidx_main_v1 i k = ix2 (i 0) k :=
  funext fun a => Fin.ext (by match a with | ⟨0, _⟩ => rfl | ⟨1, _⟩ => rfl)

/-- The right operand of the recurrent product is read at row `k`, column `i 1`. -/
theorem ridx_h (i : S65536x512.Idx) (k : Fin 512) : ridx_main_v1 i k = ix2 k (i 1) :=
  funext fun a => Fin.ext (by match a with | ⟨0, _⟩ => rfl | ⟨1, _⟩ => rfl)

/-- The bias, spread over one row and then over all rows, is read at entry `i 1`. -/
theorem bidx (i : S65536x512.Idx) : idx_main_v3 (idx_main_v4 i) = ix1 (i 1) :=
  funext fun a => Fin.ext (by match a with | ⟨0, _⟩ => rfl)

/-- The candidate pair reads its operands at the same positions as the forget pair: input product, left operand at row `i 0`, column `k`. -/
theorem lidx_x' (i : S65536x512.Idx) (k : Fin 256) : lidx_main_v6 i k = ix2 (i 0) k :=
  funext fun a => Fin.ext (by match a with | ⟨0, _⟩ => rfl | ⟨1, _⟩ => rfl)

/-- Candidate input product, right operand: row `k`, column `i 1`. -/
theorem ridx_x' (i : S65536x512.Idx) (k : Fin 256) : ridx_main_v6 i k = ix2 k (i 1) :=
  funext fun a => Fin.ext (by match a with | ⟨0, _⟩ => rfl | ⟨1, _⟩ => rfl)

/-- Candidate recurrent product, left operand: row `i 0`, column `k`. -/
theorem lidx_h' (i : S65536x512.Idx) (k : Fin 512) : lidx_main_v7 i k = ix2 (i 0) k :=
  funext fun a => Fin.ext (by match a with | ⟨0, _⟩ => rfl | ⟨1, _⟩ => rfl)

/-- Candidate recurrent product, right operand: row `k`, column `i 1`. -/
theorem ridx_h' (i : S65536x512.Idx) (k : Fin 512) : ridx_main_v7 i k = ix2 k (i 1) :=
  funext fun a => Fin.ext (by match a with | ⟨0, _⟩ => rfl | ⟨1, _⟩ => rfl)

/-- The candidate bias is read at entry `i 1`. -/
theorem bidx' (i : S65536x512.Idx) : idx_main_v9 (idx_main_v10 i) = ix1 (i 1) :=
  funext fun a => Fin.ext (by match a with | ⟨0, _⟩ => rfl)

/-! ## The two pre-activations -/

/-- The forget stage at `i` is the specification's pre-activation of the forget weights at row `i 0`, column `i 1`. -/
theorem pre_f (x0 : (⟨S65536x256, .f32⟩ : BufTy).Contents (Elt Ideal)) (x1 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) (i : S65536x512.Idx) :
    val_main_v5 (F := Ideal) x0 x1 x5 x7 x9 i = Cert.Cell.pre x0 x1 x5 x7 x9 (i 0) (i 1) := by
  rw [val_main_v5_apply, val_main_v2_apply, val_main_v0_apply, val_main_v1_apply, val_main_v4_apply, val_main_v3_apply]
  simp only [lidx_x, ridx_x, lidx_h, ridx_h, bidx, Ideal.addf_def]
  rfl

/-- The candidate stage at `i` is the specification's pre-activation of the candidate weights at the same position. -/
theorem pre_c (x0 : (⟨S65536x256, .f32⟩ : BufTy).Contents (Elt Ideal)) (x1 : (⟨S65536x512, .f32⟩ : BufTy).Contents (Elt Ideal))
    (x6 : (⟨S256x512, .f32⟩ : BufTy).Contents (Elt Ideal)) (x8 : (⟨S512x512, .f32⟩ : BufTy).Contents (Elt Ideal))
    (x10 : (⟨S512, .f32⟩ : BufTy).Contents (Elt Ideal)) (i : S65536x512.Idx) :
    val_main_v11 (F := Ideal) x0 x1 x6 x8 x10 i = Cert.Cell.pre x0 x1 x6 x8 x10 (i 0) (i 1) := by
  rw [val_main_v11_apply, val_main_v8_apply, val_main_v6_apply, val_main_v7_apply, val_main_v10_apply, val_main_v9_apply]
  simp only [lidx_x', ridx_x', lidx_h', ridx_h', bidx', Ideal.addf_def]
  rfl

/-! ## The pointwise stages -/

/-- The stabilizer stage: the larger of `u + m` and the zero word. -/
theorem stab_at (x0 : (⟨S65536x256, .f32⟩ : BufTy).Contents (Elt Ideal)) (x1 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) (i : S65536x512.Idx) :
    val_main_v14 (F := Ideal) x0 x1 x4 x5 x7 x9 i = Cert.Cell.stab (Cert.Cell.pre x0 x1 x5 x7 x9 (i 0) (i 1)) (x4 i) := by
  rw [val_main_v14_apply, val_main_v12_apply, val_main_v13_apply, val_main_cst_apply, pre_f]
  simp only [Cert.Cell.stab, Ideal.maximumf_def, Ideal.addf_def, Ideal.ofBits_def]

/-- The input-gate stage: `exp` of the negated stabilizer. -/
theorem inG_at (x0 : (⟨S65536x256, .f32⟩ : BufTy).Contents (Elt Ideal)) (x1 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) (i : S65536x512.Idx) :
    val_main_v16 (F := Ideal) x0 x1 x4 x5 x7 x9 i = Cert.Cell.inG (Cert.Cell.pre x0 x1 x5 x7 x9 (i 0) (i 1)) (x4 i) := by
  rw [val_main_v16_apply, val_main_v15_apply, stab_at]
  simp only [Cert.Cell.inG, Ideal.hostUnary_exp_def, Ideal.hostNegf_def, Ideal.negf_def]

/-- The forget-gate stage: `exp` of `u + m` less the stabilizer. -/
theorem keepG_at (x0 : (⟨S65536x256, .f32⟩ : BufTy).Contents (Elt Ideal)) (x1 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) (i : S65536x512.Idx) :
    val_main_v19 (F := Ideal) x0 x1 x4 x5 x7 x9 i = Cert.Cell.keepG (Cert.Cell.pre x0 x1 x5 x7 x9 (i 0) (i 1)) (x4 i) := by
  rw [val_main_v19_apply, val_main_v18_apply, val_main_v17_apply, stab_at, pre_f]
  simp only [Cert.Cell.keepG, Ideal.hostUnary_exp_def, Ideal.subf_def, Ideal.addf_def]

/-- The cell stage: the forget gate times the old cell entry, plus the input gate times `tanh` of the candidate. -/
theorem cell_at (x0 : (⟨S65536x256, .f32⟩ : BufTy).Contents (Elt Ideal)) (x1 x2 x4 : (⟨S65536x512, .f32⟩ : BufTy).Contents (Elt Ideal))
    (x5 x6 : (⟨S256x512, .f32⟩ : BufTy).Contents (Elt Ideal)) (x7 x8 : (⟨S512x512, .f32⟩ : BufTy).Contents (Elt Ideal))
    (x9 x10 : (⟨S512, .f32⟩ : BufTy).Contents (Elt Ideal)) (i : S65536x512.Idx) :
    val_main_v23 (F := Ideal) x0 x1 x2 x4 x5 x6 x7 x8 x9 x10 i
      = Cert.Cell.cell (Cert.Cell.pre x0 x1 x5 x7 x9 (i 0) (i 1)) (Cert.Cell.pre x0 x1 x6 x8 x10 (i 0) (i 1)) (x4 i) (x2 i) := by
  rw [val_main_v23_apply, val_main_v20_apply, val_main_v22_apply, val_main_v21_apply, keepG_at, inG_at, pre_c]
  simp only [Cert.Cell.cell, Ideal.addf_def, Ideal.mulf_def, Ideal.hostUnary_tanh_def]

/-- The normalizer stage: the forget gate times the old normalizer entry, plus the input gate. -/
theorem norm_at (x0 : (⟨S65536x256, .f32⟩ : BufTy).Contents (Elt Ideal)) (x1 x3 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) (i : S65536x512.Idx) :
    val_main_v25 (F := Ideal) x0 x1 x3 x4 x5 x7 x9 i
      = Cert.Cell.norm (Cert.Cell.pre x0 x1 x5 x7 x9 (i 0) (i 1)) (x4 i) (x3 i) := by
  rw [val_main_v25_apply, val_main_v24_apply, keepG_at, inG_at]
  simp only [Cert.Cell.norm, Ideal.addf_def, Ideal.mulf_def]

/-- The hidden stage: `tanh` of the cell over the larger of the normalizer and the ε word. -/
theorem hid_at (x0 : (⟨S65536x256, .f32⟩ : BufTy).Contents (Elt Ideal)) (x1 x2 x3 x4 : (⟨S65536x512, .f32⟩ : BufTy).Contents (Elt Ideal))
    (x5 x6 : (⟨S256x512, .f32⟩ : BufTy).Contents (Elt Ideal)) (x7 x8 : (⟨S512x512, .f32⟩ : BufTy).Contents (Elt Ideal))
    (x9 x10 : (⟨S512, .f32⟩ : BufTy).Contents (Elt Ideal)) (i : S65536x512.Idx) :
    val_main_v29 (F := Ideal) x0 x1 x2 x3 x4 x5 x6 x7 x8 x9 x10 i
      = Cert.Cell.hid (Cert.Cell.pre x0 x1 x5 x7 x9 (i 0) (i 1)) (Cert.Cell.pre x0 x1 x6 x8 x10 (i 0) (i 1)) (x4 i) (x2 i) (x3 i) := by
  rw [val_main_v29_apply, val_main_v28_apply, val_main_v27_apply, val_main_v26_apply, val_main_cst_0_apply, cell_at, norm_at]
  simp only [Cert.Cell.hid, Ideal.hostUnary_tanh_def, Ideal.hostDivf_def, Ideal.maximumf_def, Ideal.ofBits_def]

end Cert.Cell.Ref.Aux

namespace Cert.Cell.Ref
open Cert.ReferenceIdeal Cert.ReferenceIdeal.Read

/-- The reference's stabilizer result is the specification's stabilizer array. -/
theorem ref_m (x0 : (⟨S65536x256, .f32⟩ : BufTy).Contents (Elt Ideal)) (x1 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) :
    val_main_v14 (F := Ideal) x0 x1 x4 x5 x7 x9 = Cert.Cell.mOut x0 x1 x4 x5 x7 x9 :=
  funext fun i => Aux.stab_at x0 x1 x4 x5 x7 x9 i

/-- The reference's cell result is the specification's cell array. -/
theorem ref_c (x0 : (⟨S65536x256, .f32⟩ : BufTy).Contents (Elt Ideal)) (x1 x2 x4 : (⟨S65536x512, .f32⟩ : BufTy).Contents (Elt Ideal))
    (x5 x6 : (⟨S256x512, .f32⟩ : BufTy).Contents (Elt Ideal)) (x7 x8 : (⟨S512x512, .f32⟩ : BufTy).Contents (Elt Ideal))
    (x9 x10 : (⟨S512, .f32⟩ : BufTy).Contents (Elt Ideal)) :
    val_main_v23 (F := Ideal) x0 x1 x2 x4 x5 x6 x7 x8 x9 x10 = Cert.Cell.cOut x0 x1 x2 x4 x5 x6 x7 x8 x9 x10 :=
  funext fun i => Aux.cell_at x0 x1 x2 x4 x5 x6 x7 x8 x9 x10 i

/-- The reference's normalizer result is the specification's normalizer array. -/
theorem ref_n (x0 : (⟨S65536x256, .f32⟩ : BufTy).Contents (Elt Ideal)) (x1 x3 x4 : (⟨S65536x512, .f32⟩ : BufTy).Contents (Elt Ideal))
    (x5 : (⟨S256x512, .f32⟩ : BufTy).Contents (Elt Ideal)) (x7 : (⟨S512x512, .f32⟩ : BufTy).Contents (Elt Ideal))
    (x9 : (⟨S512, .f32⟩ : BufTy).Contents (Elt Ideal)) :
    val_main_v25 (F := Ideal) x0 x1 x3 x4 x5 x7 x9 = Cert.Cell.nOut x0 x1 x3 x4 x5 x7 x9 :=
  funext fun i => Aux.norm_at x0 x1 x3 x4 x5 x7 x9 i

/-- The reference's hidden result is the specification's hidden array. -/
theorem ref_h (x0 : (⟨S65536x256, .f32⟩ : BufTy).Contents (Elt Ideal)) (x1 x2 x3 x4 : (⟨S65536x512, .f32⟩ : BufTy).Contents (Elt Ideal))
    (x5 x6 : (⟨S256x512, .f32⟩ : BufTy).Contents (Elt Ideal)) (x7 x8 : (⟨S512x512, .f32⟩ : BufTy).Contents (Elt Ideal))
    (x9 x10 : (⟨S512, .f32⟩ : BufTy).Contents (Elt Ideal)) :
    val_main_v29 (F := Ideal) x0 x1 x2 x3 x4 x5 x6 x7 x8 x9 x10 = Cert.Cell.hOut x0 x1 x2 x3 x4 x5 x6 x7 x8 x9 x10 :=
  funext fun i => Aux.hid_at x0 x1 x2 x3 x4 x5 x6 x7 x8 x9 x10 i

end Cert.Cell.Ref

end
-- ==== Proof.lean ====
/-
  The kernel and its reference compute one function, and the certificate's five claims follow.

  The program is one step of a gated recurrent cell with a stabilized exponential gate, on a batch of 65536 rows.
  Two pre-activations are formed per position, each the sum of two inner products (of the input row with a 256 × 512
  weight matrix and of the hidden row with a 512 × 512 one) plus a bias entry; the rest is pointwise in the
  pre-activations and the three state entries at the position (Proof/Spec.lean states it once, over no program).

  The kernel walks the batch in 64 blocks of 1024 rows, all weights resident, and rounds the factors of its matrix
  products to a shorter float format; on the extended reals that rounding is the identity, a matrix product into a
  zero accumulator is the same inner product as the reference's contraction, and the kernel's `0 − s` is the
  reference's `−s`. Both sums are grouped alike, so no law of arithmetic beyond that one is used and nothing is asked
  of the inputs: the precondition is never opened.

    * Proof/Payload.lean    — one element of the kernel body's results is the specification's pointwise function;
    * Proof/Blocks.lean     — where the blocks sit in their arrays, and that the output blocks cover them;
    * Proof/BlockValue.lean, Proof/KernelValue.lean — so each result array after the kernel's run is the specification's;
    * Proof/RefSpec.lean    — each result of the reference, element by element, is the specification's.

  The three frames are the generated runs; the idealization rewrote nothing, so `preserves` asks nothing.
-/
import proofs.«146297_j23545010717396_1_alg».proof.Defs
import proofs.«146297_j23545010717396_1_alg».proof.Proof.Gen.Kernel
import proofs.«146297_j23545010717396_1_alg».proof.Proof.Gen.Kernel.Frame
import proofs.«146297_j23545010717396_1_alg».proof.Proof.Gen.KernelIdeal
import proofs.«146297_j23545010717396_1_alg».proof.Proof.Gen.KernelIdeal.Frame
import proofs.«146297_j23545010717396_1_alg».proof.Proof.Gen.KernelIdeal.Value
import proofs.«146297_j23545010717396_1_alg».proof.Proof.Gen.ReferenceIdeal
import proofs.«146297_j23545010717396_1_alg».proof.Proof.Gen.ReferenceIdeal.Run
import proofs.«146297_j23545010717396_1_alg».proof.Proof.Gen.ReferenceIdeal.Read
import proofs.«146297_j23545010717396_1_alg».proof.Proof.Gen.Pre_finite_inputs
import proofs.«146297_j23545010717396_1_alg».proof.Proof.KernelValue
import proofs.«146297_j23545010717396_1_alg».proof.Proof.RefSpec
import Idealize.ShloMosaic.Adequacy
import Idealize.ShloMosaic.Init

noncomputable section

namespace Cert.Proof

open Idealize.ShloMosaic Idealize.SL.Sem

/-- The word-level kernel runs to the end without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run ends, and of its post only the part about the
    arguments is kept here. -/
theorem frame_ri : Cert.frame_ReferenceIdeal := fun m ρ _ =>
  (θ_run Cert.ReferenceIdeal.defs _ _).mono (fun _ h c => (h c).2.2.2.2)
    (Cert.ReferenceIdeal.Value.run (F := Ideal) m ρ)

/-- The idealization changed no operation of the kernel. -/
theorem preserves : Cert.preserves_Kernel_KernelIdeal := trivial

/-- From memories that agree on the eleven arguments both programs end with the same four arrays: the kernel's run
    leaves the specification's hidden, cell, normalizer and stabilizer arrays of its arguments, the reference's run
    leaves its four result terms, each of which is the specification's array of ITS arguments, and the arguments
    agree. -/
theorem algebraic : Cert.algebraic_KernelIdeal_ReferenceIdeal := by
  intro m ρ m' ρ' _ hagree
  refine ⟨_, _, _, _, Cert.Cell.KernelValue.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10⟩ := hagree c
  refine ⟨(h c).1.trans ?_, (h c).2.1.trans ?_, (h c).2.2.1.trans ?_, (h c).2.2.2.1.trans ?_, (h c).2.2.2.2⟩
  · refine (Cert.ReferenceIdeal.Read.val_main_v29_eq m' c).trans ((Cert.Cell.Ref.ref_h _ _ _ _ _ _ _ _ _ _ _).trans ?_)
    rw [a0, a1, a2, a3, a4, a5, a6, a7, a8, a9, a10]
  · refine (Cert.Cell.Ref.ref_c _ _ _ _ _ _ _ _ _ _).trans ?_
    rw [a0, a1, a2, a4, a5, a6, a7, a8, a9, a10]
  · refine (Cert.Cell.Ref.ref_n _ _ _ _ _ _ _).trans ?_
    rw [a0, a1, a3, a4, a5, a7, a9]
  · refine (Cert.Cell.Ref.ref_m _ _ _ _ _ _).trans ?_
    rw [a0, a1, a4, a5, a7, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
